-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x2 : Shape := ⟨2, ![8, 2]⟩
abbrev S3x128x128 : Shape := ⟨3, ![3, 128, 128]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x2 : S_.BroadcastsInDim S8x2 (![] : Fin 0 → Fin S8x2.rank)
  reducesTo_S8x2_S_d0_1 : S8x2.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S100000x128 .f32) (main_arg1 : FVec F S8x2 .f32) (main_arg2 : FVec F S3x128x128 .f32) (main_arg3 : FVec F S128 .f32) (main_arg4 : FVec F S128x128 .f32) (main_arg5 : IVec S1600000 32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x2 .f32 := Host.absf main_arg1
  let main_cst_0 : FVec F S_ .f32 := constant S_ .f32 0x7F800000#32
  let main_v5 : FVec F S8x2 .f32 := broadcastInDim S8x2 ![] bcast_S_S8x2 main_cst_0
  let main_v6 : IVec S8x2 1 := cmpf .olt main_v4 main_v5
  let main_c_1 : IVec S_ 1 := constantI S_ 1 1#1
  let main_v7 : IVec S_ 1 := (fun x v => Host.reduce IntOp.andi x v reducesTo_S8x2_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S8x2 : Shape := ⟨2, ![8, 2]⟩
abbrev S3x128x128 : Shape := ⟨3, ![3, 128, 128]⟩
abbrev S128 : Shape := ⟨1, ![128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x2 : Shape := ⟨2, ![1600000, 2]⟩
abbrev S1x128x128 : Shape := ⟨3, ![1, 128, 128]⟩
abbrev S1x128 : Shape := ⟨2, ![1, 128]⟩
abbrev S4000x128 : Shape := ⟨2, ![4000, 128]⟩

abbrev nBuf : Space → Nat
  | .hbm => 51
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S8x2, .f32⟩
  | .hbm, ⟨2, _⟩ => ⟨S3x128x128, .f32⟩
  | .hbm, ⟨3, _⟩ => ⟨S128, .f32⟩
  | .hbm, ⟨4, _⟩ => ⟨S128x128, .f32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S100000x128, .bf16⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .bf16⟩
  | .hbm, ⟨18, _⟩ => ⟨S1600000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x2, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1600000x1, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x128x128, .f32⟩
  | .hbm, ⟨43, _⟩ => ⟨S128x128, .f32⟩
  | .hbm, ⟨44, _⟩ => ⟨S128x128, .f32⟩
  | .hbm, ⟨45, _⟩ => ⟨S1x128x128, .f32⟩
  | .hbm, ⟨46, _⟩ => ⟨S128x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x2_S1600000x1_0_0 : S1600000x2.Slices ![0, 0] S1600000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S1600000x2_S1600000x1_0_1 : S1600000x2.Slices ![0, 1] S1600000x1
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  gather_S8x2_S1600000x1_S1600000x2_1_0_n_n_0_1_12_wf : GatherDims.WF S8x2 S1600000x1 S1600000x2 [1] [0] [] [0] [] 1 ![1, 2]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S8x2_S1600000x1_S1600000x2_1_0_n_n_0_1_12 : GatherDims S8x2 S1600000x1 S1600000x2 where
  offsetDims := [1]
  collapsedSliceDims := [0]
  operandBatchingDims := []
  startIndicesBatchingDims := []
  startIndexMap := [0]
  indexVectorDim := 1
  sliceSizes := ![1, 2]
  wf := gather_S8x2_S1600000x1_S1600000x2_1_0_n_n_0_1_12_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S8x2 : Shape := ⟨2, ![8, 2]⟩
abbrev S3x128x128 : Shape := ⟨3, ![3, 128, 128]⟩
abbrev S128 : Shape := ⟨1, ![128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x2 : Shape := ⟨2, ![1600000, 2]⟩
abbrev S100000x384 : Shape := ⟨2, ![100000, 384]⟩
abbrev S384x128 : Shape := ⟨2, ![384, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S8x2, .f32⟩
  | .hbm, ⟨2, _⟩ => ⟨S3x128x128, .f32⟩
  | .hbm, ⟨3, _⟩ => ⟨S128, .f32⟩
  | .hbm, ⟨4, _⟩ => ⟨S128x128, .f32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1600000x1, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x384, .f32⟩
  | .hbm, ⟨41, _⟩ => ⟨S384x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x2_S1600000x1_0_0 : S1600000x2.Slices ![0, 0] S1600000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S1600000x2_S1600000x1_0_1 : S1600000x2.Slices ![0, 1] S1600000x1
  concatenates_S100000x128_S100000x128_S100000x128_S100000x384_d1 : Shape.Concatenates [S100000x128, S100000x128, S100000x128] S100000x384 1
  shapeCasts_S3x128x128_S384x128 : S3x128x128.ShapeCasts S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  gather_S8x2_S1600000x1_S1600000x2_1_0_n_n_0_1_12_wf : GatherDims.WF S8x2 S1600000x1 S1600000x2 [1] [0] [] [0] [] 1 ![1, 2]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S8x2_S1600000x1_S1600000x2_1_0_n_n_0_1_12 : GatherDims S8x2 S1600000x1 S1600000x2 where
  offsetDims := [1]
  collapsedSliceDims := [0]
  operandBatchingDims := []
  startIndicesBatchingDims := []
  startIndexMap := [0]
  indexVectorDim := 1
  sliceSizes := ![1, 2]
  wf := gather_S8x2_S1600000x1_S1600000x2_1_0_n_n_0_1_12_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.DenseTail.lean ====
/-
  The dense tail of a relational graph convolution with two bases, as ONE function of its arrays, index by index.

  For a node n and an output feature j, with x the node features, s and t the two per-basis aggregates (whatever they
  are: nothing below looks inside them), w the three stacked 128 x 128 weight slabs, l the self-loop weight and b the bias:

      out n j = (( sum_k x n k * (w 0 k j + l k j)  +  sum_k s n k * w 1 k j )  +  sum_k t n k * w 2 k j )  +  b j .

  That is the FOLDED form: the self-loop weight is added onto slab 0 once, and the three products are separate.
  The UNFOLDED form joins x, s, t side by side into rows of length 384, multiplies by the three slabs stacked into one
  384 x 128 matrix, adds the bias, and only then adds the self-loop product x * l:

      out n j = ( sum_{kk < 384} (x | s | t) n kk * W kk j  +  b j )  +  sum_k x n k * l k j .

  The two agree as soon as x, slab 0 and l hold real numbers: the only step that is not a mere regrouping of a sum is
  x * (a + l) = x * a + x * l, which fails on the extended reals at infinities. The aggregates s and t may hold anything.
-/
import Idealize.ShloMosaic.PureOps.Ideal
import Idealize.ShloMosaic.Lib.ValueIdx

noncomputable section

namespace Cert.Rgcn

open Idealize.ShloMosaic Idealize.ShloMosaic.ValueIdx

/-! ## A sum over 384 as three sums over 128 -/

/-- Position `k` of slab `a` in a row of three slabs of 128 laid end to end. -/
def slab (a : Fin 3) (k : Fin 128) : Fin 384 := ⟨128 * a.val + k.val, by have := a.isLt; have := k.isLt; omega⟩

@[simp] theorem slab_val (a : Fin 3) (k : Fin 128) : (slab a k).val = 128 * a.val + k.val := rfl

/-- A sum over the 384 positions is the sum over slab 0, then slab 1, then slab 2. -/
theorem sum_slabs {M : Type*} [AddCommMonoid M] (g : Fin 384 → M) :
    ∑ κ : Fin 384, g κ = ∑ k : Fin 128, g (slab 0 k) + ∑ k : Fin 128, g (slab 1 k) + ∑ k : Fin 128, g (slab 2 k) := by
  have e : ∀ (a : Fin 3) (k : Fin 128), (finProdFinEquiv : Fin 3 × Fin 128 ≃ Fin 384) (a, k) = slab a k := fun a k =>
    Fin.ext (by rw [finProdFinEquiv_apply_val, slab_val]; exact Nat.add_comm _ _)
  rw [← Equiv.sum_comp (finProdFinEquiv : Fin 3 × Fin 128 ≃ Fin 384) g, Fintype.sum_prod_type, Fin.sum_univ_three]
  simp only [e]

/-! ## The one law -/

/-- A real times a sum of two reals distributes, inside the extended reals. -/
theorem coe_mul_add (x a l : ℝ) : (x : EReal) * ((a : EReal) + (l : EReal)) = (x : EReal) * (a : EReal) + (x : EReal) * (l : EReal) := by
  rw [← EReal.coe_add, ← EReal.coe_mul, mul_add, EReal.coe_add, EReal.coe_mul, EReal.coe_mul]

/-- The folded form is the unfolded form, for real x, a, l and any extended-real products P, Q and bias β:
    ((Σ x (a + l) + P) + Q) + β = ((Σ x a + P + Q) + β) + Σ x l. -/
theorem fold_loop {ι : Type*} [Fintype ι] (x a l : ι → EReal)
    (hx : ∀ k, ∃ r : ℝ, x k = r) (ha : ∀ k, ∃ r : ℝ, a k = r) (hl : ∀ k, ∃ r : ℝ, l k = r) (P Q β : EReal) :
    ((∑ k, x k * (a k + l k) + P) + Q) + β = ((∑ k, x k * a k + P + Q) + β) + ∑ k, x k * l k := by
  have hd : ∀ k, x k * (a k + l k) = x k * a k + x k * l k := fun k => by
    obtain ⟨xr, hxr⟩ := hx k; obtain ⟨ar, har⟩ := ha k; obtain ⟨lr, hlr⟩ := hl k
    rw [hxr, har, hlr]; exact coe_mul_add xr ar lr
  rw [Finset.sum_congr rfl fun k _ => hd k, Finset.sum_add_distrib]
  abel

/-! ## The specification -/

abbrev Nodes : Shape := ⟨2, ![100000, 128]⟩
abbrev Square : Shape := ⟨2, ![128, 128]⟩
abbrev Slabs : Shape := ⟨3, ![3, 128, 128]⟩
abbrev Lanes : Shape := ⟨1, ![128]⟩

/-- The folded form, index by index. -/
def dense (x s t : Nodes.Idx → EReal) (w : Slabs.Idx → EReal) (b : Lanes.Idx → EReal) (l : Square.Idx → EReal) : Nodes.Idx → EReal :=
  fun i => ((∑ k : Fin 128, x (ix2 (i 0) k) * (w (ix3 0 k (i 1)) + l (ix2 k (i 1)))
      + ∑ k : Fin 128, s (ix2 (i 0) k) * w (ix3 1 k (i 1)))
      + ∑ k : Fin 128, t (ix2 (i 0) k) * w (ix3 2 k (i 1)))
      + b (ix1 (i 1))

/-- The unfolded form with its 384-long sum already cut into the three slabs. -/
theorem dense_unfolded (x s t : Nodes.Idx → EReal) (w : Slabs.Idx → EReal) (b : Lanes.Idx → EReal) (l : Square.Idx → EReal)
    (hx : ∀ j, ∃ r : ℝ, x j = r) (hw : ∀ j, ∃ r : ℝ, w j = r) (hl : ∀ j, ∃ r : ℝ, l j = r) (i : Nodes.Idx) :
    dense x s t w b l i
      = ((∑ k : Fin 128, x (ix2 (i 0) k) * w (ix3 0 k (i 1))
          + ∑ k : Fin 128, s (ix2 (i 0) k) * w (ix3 1 k (i 1))
          + ∑ k : Fin 128, t (ix2 (i 0) k) * w (ix3 2 k (i 1)))
          + b (ix1 (i 1)))
        + ∑ k : Fin 128, x (ix2 (i 0) k) * l (ix2 k (i 1)) :=
  fold_loop (fun k => x (ix2 (i 0) k)) (fun k => w (ix3 0 k (i 1))) (fun k => l (ix2 k (i 1)))
    (fun k => hx _) (fun k => hw _) (fun k => hl _) _ _ _

/-- The folded form at node n, output feature j, spelt out. -/
theorem dense_ix2 (x s t : Nodes.Idx → EReal) (w : Slabs.Idx → EReal) (b : Lanes.Idx → EReal) (l : Square.Idx → EReal)
    (n : Fin 100000) (j : Fin 128) :
    dense x s t w b l (ix2 n j)
      = ((∑ k : Fin 128, x (ix2 n k) * (w (ix3 0 k j) + l (ix2 k j))
          + ∑ k : Fin 128, s (ix2 n k) * w (ix3 1 k j))
          + ∑ k : Fin 128, t (ix2 n k) * w (ix3 2 k j))
        + b (ix1 j) := rfl

/-- The unfolded form at node n, output feature j, spelt out. -/
theorem dense_unfolded_ix2 (x s t : Nodes.Idx → EReal) (w : Slabs.Idx → EReal) (b : Lanes.Idx → EReal) (l : Square.Idx → EReal)
    (hx : ∀ j, ∃ r : ℝ, x j = r) (hw : ∀ j, ∃ r : ℝ, w j = r) (hl : ∀ j, ∃ r : ℝ, l j = r) (n : Fin 100000) (j : Fin 128) :
    dense x s t w b l (ix2 n j)
      = ((∑ k : Fin 128, x (ix2 n k) * w (ix3 0 k j)
          + ∑ k : Fin 128, s (ix2 n k) * w (ix3 1 k j)
          + ∑ k : Fin 128, t (ix2 n k) * w (ix3 2 k j))
          + b (ix1 j))
        + ∑ k : Fin 128, x (ix2 n k) * l (ix2 k j) :=
  dense_unfolded x s t w b l hx hw hl (ix2 n j)

end Cert.Rgcn

end
-- ==== Proof.EntryArrays.lean ====
/-
  What the pipelined region finds in its operand arrays: the host operations before it, read back.

  * The two aggregates are, per basis b, the scatter-add over the edges' destination of (edge coefficient b) times the
    gathered source feature row. The kernel gathers a bf16 copy of the features and widens it again; at the exact values
    both format changes are the identity, so each aggregate is literally the reference's own stage (its scatter-add of its
    gathered products) of the same arguments. Nothing here looks inside a gather or a scatter.
  * The first weight is slab 0 of the stacked weights plus the self-loop weight, entry by entry; the other two are slabs
    1 and 2; the bias row is the bias vector.
-/
import proofs.«123690_j3728031613523_2_alg».proof.Proof.Gen.KernelIdeal.Frame
import proofs.«123690_j3728031613523_2_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The arrays by name, each with its plain type -/

/-- The arguments as launched. -/
abbrev feat (c : Dev nD) : S100000x128.Idx → EReal := m ((c : Thread nD τ).loc main_arg0)
abbrev coeff (c : Dev nD) : S8x2.Idx → EReal := m ((c : Thread nD τ).loc main_arg1)
abbrev stack (c : Dev nD) : S3x128x128.Idx → EReal := m ((c : Thread nD τ).loc main_arg2)
abbrev bias (c : Dev nD) : S128.Idx → EReal := m ((c : Thread nD τ).loc main_arg3)
abbrev loopW (c : Dev nD) : S128x128.Idx → EReal := m ((c : Thread nD τ).loc main_arg4)
abbrev edgeSrc (c : Dev nD) : IVec S1600000 32 := m ((c : Thread nD τ).loc main_arg5)
abbrev edgeDst (c : Dev nD) : IVec S1600000 32 := m ((c : Thread nD τ).loc main_arg6)
abbrev edgeTy (c : Dev nD) : IVec S1600000 32 := m ((c : Thread nD τ).loc main_arg7)

/-- The arrays the host operations wrote, as the region finds them (definitions, not abbreviations: what is behind them is
    the whole host prefix, and a lemma about one of them should be found by its name). -/
def agg0 (c : Dev nD) : S100000x128.Idx → EReal := V m c main_v21
def agg1 (c : Dev nD) : S100000x128.Idx → EReal := V m c main_v27
def wgt0 (c : Dev nD) : S128x128.Idx → EReal := V m c main_v30
def wgt1 (c : Dev nD) : S128x128.Idx → EReal := V m c main_v32
def wgt2 (c : Dev nD) : S128x128.Idx → EReal := V m c main_v34
def biasRow (c : Dev nD) : S1x128.Idx → EReal := V m c main_v35

/-! ## The aggregates -/

/-- The aggregate of basis 0 as the region finds it: the reference's stage of the same arguments. -/
theorem agg0_eq (c : Dev nD) :
    agg0 m c = Cert.ReferenceIdeal.Read.val_main_v19 (F := Ideal) (feat m c) (coeff m c) (edgeSrc m c) (edgeDst m c) (edgeTy m c) := by
  dsimp only [agg0, V, hostOps0]
  after_results_simp <;> rfl

/-- The aggregate of basis 1 as the region finds it: the reference's stage of the same arguments. -/
theorem agg1_eq (c : Dev nD) :
    agg1 m c = Cert.ReferenceIdeal.Read.val_main_v25 (F := Ideal) (feat m c) (coeff m c) (edgeSrc m c) (edgeDst m c) (edgeTy m c) := by
  dsimp only [agg1, V, hostOps0]
  after_results_simp <;> rfl

/-! ## The weights and the bias row -/

/-- Slab a of the stacked weights, cut out as a [1,128,128] piece at offset o = a and viewed as a 128 x 128 matrix:
    its entry (k, q) is the stack's entry (a, k, q). -/
theorem slab_apply (o : Nat) (a : Fin 3) (ho : a.val = o) (w : FVec Ideal S3x128x128 .f32) (h : S3x128x128.Slices ![o, 0, 0] S1x128x128)
    (k q : Fin 128) :
    shapeCast S128x128 (extractStridedSlice S1x128x128 ![o, 0, 0] w h) shapeCasts_S1x128x128_S128x128 (ix2 k q) = w (ix3 a k q) := by
  rw [shapeCast_apply _ shapeCasts_S1x128x128_S128x128 (ix2 k q) (ix3 (0 : Fin 1) k q)
    (by rw [Shape.rowMajor_val_three, Shape.rowMajor_val_two]; show ((0 : Nat) * 128 + k.val) * 128 + q.val = k.val * 128 + q.val; omega)]
  exact extractStridedSlice_apply _ w h (ix3 (0 : Fin 1) k q) (ix3 a k q) fun d => by
    match d with
    | ⟨0, _⟩ => show a.val = o + 0; omega
    | ⟨1, _⟩ => show k.val = 0 + k.val; omega
    | ⟨2, _⟩ => show q.val = 0 + q.val; omega

/-- The first weight the region finds: slab 0 plus the self-loop weight. -/
theorem wgt0_eq (c : Dev nD) :
    wgt0 m c = addf (F := Ideal) (φ := .f32) (shapeCast S128x128 (extractStridedSlice S1x128x128 ![0, 0, 0] (stack m c) slices_S3x128x128_S1x128x128_0_0_0) shapeCasts_S1x128x128_S128x128)
          (loopW m c) := by
  dsimp only [wgt0, V, hostOps0]
  after_results_simp <;> rfl

theorem wgt0_apply (c : Dev nD) (k q : Fin 128) :
    wgt0 m c (ix2 k q) = stack m c (ix3 0 k q) + loopW m c (ix2 k q) := by
  rw [wgt0_eq]
  exact congrArg (· + loopW m c (ix2 k q)) (slab_apply 0 0 rfl _ _ k q)

/-- The second weight: slab 1. -/
theorem wgt1_eq (c : Dev nD) :
    wgt1 m c = shapeCast S128x128 (extractStridedSlice S1x128x128 ![1, 0, 0] (stack m c) slices_S3x128x128_S1x128x128_1_0_0) shapeCasts_S1x128x128_S128x128 := by
  dsimp only [wgt1, V, hostOps0]
  after_results_simp <;> rfl

theorem wgt1_apply (c : Dev nD) (k q : Fin 128) : wgt1 m c (ix2 k q) = stack m c (ix3 1 k q) := by
  rw [wgt1_eq]
  exact slab_apply 1 1 rfl _ _ k q

/-- The third weight: slab 2. -/
theorem wgt2_eq (c : Dev nD) :
    wgt2 m c = shapeCast S128x128 (extractStridedSlice S1x128x128 ![2, 0, 0] (stack m c) slices_S3x128x128_S1x128x128_2_0_0) shapeCasts_S1x128x128_S128x128 := by
  dsimp only [wgt2, V, hostOps0]
  after_results_simp <;> rfl

theorem wgt2_apply (c : Dev nD) (k q : Fin 128) : wgt2 m c (ix2 k q) = stack m c (ix3 2 k q) := by
  rw [wgt2_eq]
  exact slab_apply 2 2 rfl _ _ k q

/-- The bias row: the bias vector viewed as one row. -/
theorem biasRow_eq (c : Dev nD) : biasRow m c = shapeCast S1x128 (bias m c) shapeCasts_S128_S1x128 := by
  dsimp only [biasRow, V, hostOps0]
  after_results_simp <;> rfl

theorem biasRow_apply (c : Dev nD) (q : Fin 128) : biasRow m c (ix2 0 q) = bias m c (ix1 q) := by
  rw [biasRow_eq]
  exact shapeCast_apply _ shapeCasts_S128_S1x128 (ix2 (0 : Fin 1) q) (ix1 q)
    (by rw [Shape.rowMajor_val_one, Shape.rowMajor_val_two]; show q.val = (0 : Nat) * 128 + q.val; omega)

end Cert.KernelIdeal.Entry

end
-- ==== Proof.BodyAtIndex.lean ====
/-
  What the kernel body stores, read at one element of its 4000 x 128 block.

  The body loads a 4000-row block of the features x and of the two aggregates s, t, the three 128 x 128 weights u, v, w
  (u is slab 0 with the self-loop weight already added) and the bias row b, and stores

      (x * u + s * v) + t * w + b   (matrix products accumulated into zero, the bias row broadcast down the rows).

  At the exact values a change of float format is the identity and a matrix product into a zero accumulator is the plain
  sum over the contracted axis, so the element in row p and lane q is

      ((sum_k x p k * u k q + sum_k s p k * v k q) + sum_k t p k * w k q) + b 0 q .
-/
import proofs.«123690_j3728031613523_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The left operand's index at output index i and contraction index c: row = i's row. -/
theorem lhs_row (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … column = the contraction index. -/
theorem lhs_col (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
/-- The right operand's index: row = the contraction index, -/
theorem rhs_row (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
/-- … column = i's lane. -/
theorem rhs_col (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 x 128 by 128 x 128 product into the zero accumulator, at row p and lane q: the sum over the 128 contracted
    positions of the row's entry times the column's. The operands may be of any float format. -/
theorem product_apply {φ₁ φ₂ : FTy} (a : FVec Ideal S4000x128 φ₁) (u : FVec Ideal S128x128 φ₂) (p : Fin 4000) (q : Fin 128) :
    matmul dot_S4000x128_S128x128_S4000x128_1_0_0_1_n_n none a u (constant S4000x128 .f32 0x00000000#32) (ix2 p q)
      = ∑ k : Fin 128, a (ix2 p k) * u (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun d => Fin.ext (by
      match d with
      | ⟨0, _⟩ => exact lhs_row _ _
      | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun d => Fin.ext (by
      match d with
      | ⟨0, _⟩ => exact (rhs_row _ _).trans hk
      | ⟨1, _⟩ => exact rhs_col _ _)
  rw [el, er]

/-- The bias row broadcast down the 4000 rows, at row p and lane q, is the row's entry in lane q. -/
theorem bias_apply (b : FVec Ideal S1x128 .f32) (p : Fin 4000) (q : Fin 128) :
    broadcastTo S4000x128 b broadcasts_S1x128_S4000x128 (ix2 p q) = b (ix2 0 q) :=
  broadcastTo_apply b broadcasts_S1x128_S4000x128 (ix2 p q) (ix2 0 q) fun d => by
    match d with
    | ⟨0, _⟩ => show (0 : Nat) = if (1 : Nat) = 1 then 0 else _; rw [if_pos rfl]
    | ⟨1, _⟩ => show q.val = if (128 : Nat) = 1 then 0 else q.val; rw [if_neg (by decide)]

/-- THE STORED ELEMENT in row p, lane q of the block. -/
theorem stored_apply (x s t : Vec Ideal S4000x128 .f32) (u v w : Vec Ideal S128x128 .f32) (b : Vec Ideal S1x128 .f32) (p : Fin 4000) (q : Fin 128) :
    k0_pay1 (F := Ideal) x s t u v w b (ix2 p q)
      = ((∑ k : Fin 128, x (ix2 p k) * u (ix2 k q) + ∑ k : Fin 128, s (ix2 p k) * v (ix2 k q))
          + ∑ k : Fin 128, t (ix2 p k) * w (ix2 k q)) + b (ix2 0 q) := by
  unfold k0_pay1
  simp only [shapeCast_self]
  show ((matmul _ none _ _ _ (ix2 p q) + matmul _ none _ _ _ (ix2 p q)) + matmul _ none _ _ _ (ix2 p q)) + broadcastTo _ _ _ (ix2 p q) = _
  rw [product_apply, product_apply, product_apply, bias_apply]
  rfl

end Cert.KernelIdeal.Body

end
-- ==== Proof.Blocks.lean ====
/-
  The 25 grid points' blocks, read where they lie in their arrays.

  Point t handles rows 4000 t … 4000 t + 3999: its blocks of the features and of the two aggregates are those rows of
  their arrays, and it writes those rows of the result; its blocks of the three weights and of the bias row are the
  whole arrays (block index (0, 0) at every point).
-/
import proofs.«123690_j3728031613523_2_alg».proof.Proof.Gen.KernelIdeal.Frame
import proofs.«123690_j3728031613523_2_alg».proof.Proof.EntryArrays
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Entry

variable (m : (ℓ : Loc nD τ sig) → Buf (Elt Ideal) ℓ) (ρ : Dev nD → PrngReg)

theorem hz : (![0, 0] : Fin 2 → Nat) = fun _ => 0 := funext fun a => by fin_cases a <;> rfl

/-- The grid has 25 points. -/
theorem points : cfg0.N = 25 := N_0

/-- The block index of every window at every point, decided over the 25 points: the three row-blocked inputs and the
    output are at block (t, 0), the weights and the bias row at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row p of point t's block is row 4000 t + p of the array. -/
def row (t : Fin cfg0.N) (p : Fin 4000) : Fin 100000 :=
  ⟨4000 * t.val + p.val, by have ht := t.isLt; have e : cfg0.N = 25 := points; have := p.isLt; omega⟩

@[simp] theorem row_val (t : Fin cfg0.N) (p : Fin 4000) : (row t p).val = 4000 * t.val + p.val := rfl

/-! ## Each window's block, read where it lies in its array

Stated over ANY contents of the window's array: which array element a block element is depends on the window's index map
alone, never on what the array holds. -/

/-- Window 0's block at point t, read off ANY contents A of its array: row p, lane k is A's row 4000 t + p, lane k. -/
theorem rows_of0 (A : S100000x128.Idx → EReal) (t : Fin cfg0.N) (p : Fin 4000) (k : Fin 128) :
    (((cfg0.win 0).blk t).view.read (Elt Ideal) A : Vec Ideal S4000x128 .f32) (ix2 p k) = A (ix2 (row t p) k) := by
  rewrite [View.read_apply]
  refine congrArg A (funext fun a => Fin.ext ?_)
  have e := index_facts t
  match a with
  | ⟨0, _⟩ => show win0_0.index t (0 : Fin 2) * 4000 + 1 * p.val = 4000 * t.val + p.val; rewrite [e.1.1]; omega
  | ⟨1, _⟩ => show win0_0.index t (1 : Fin 2) * 128 + 1 * k.val = k.val; rewrite [e.1.2]; omega

/-- Window 1's block at point t, read off ANY contents A of its array: row p, lane k is A's row 4000 t + p, lane k. -/
theorem rows_of1 (A : S100000x128.Idx → EReal) (t : Fin cfg0.N) (p : Fin 4000) (k : Fin 128) :
    (((cfg0.win 1).blk t).view.read (Elt Ideal) A : Vec Ideal S4000x128 .f32) (ix2 p k) = A (ix2 (row t p) k) := by
  rewrite [View.read_apply]
  refine congrArg A (funext fun a => Fin.ext ?_)
  have e := index_facts t
  match a with
  | ⟨0, _⟩ => show win0_1.index t (0 : Fin 2) * 4000 + 1 * p.val = 4000 * t.val + p.val; rewrite [e.2.1.1]; omega
  | ⟨1, _⟩ => show win0_1.index t (1 : Fin 2) * 128 + 1 * k.val = k.val; rewrite [e.2.1.2]; omega

/-- Window 2's block at point t, read off ANY contents A of its array: row p, lane k is A's row 4000 t + p, lane k. -/
theorem rows_of2 (A : S100000x128.Idx → EReal) (t : Fin cfg0.N) (p : Fin 4000) (k : Fin 128) :
    (((cfg0.win 2).blk t).view.read (Elt Ideal) A : Vec Ideal S4000x128 .f32) (ix2 p k) = A (ix2 (row t p) k) := by
  rewrite [View.read_apply]
  refine congrArg A (funext fun a => Fin.ext ?_)
  have e := index_facts t
  match a with
  | ⟨0, _⟩ => show win0_2.index t (0 : Fin 2) * 4000 + 1 * p.val = 4000 * t.val + p.val; rewrite [e.2.2.1.1]; omega
  | ⟨1, _⟩ => show win0_2.index t (1 : Fin 2) * 128 + 1 * k.val = k.val; rewrite [e.2.2.1.2]; omega

/-- Window 3's block at any point, read off ANY contents A of its array: it is the whole array. -/
theorem whole_of3 (A : S128x128.Idx → EReal) (t : Fin cfg0.N) (k q : Fin 128) :
    (((cfg0.win 3).blk t).view.read (Elt Ideal) A : Vec Ideal S128x128 .f32) (ix2 k q) = A (ix2 k q) := by
  rewrite [View.read_apply]
  refine congrArg A (funext fun a => Fin.ext ?_)
  have e := index_facts t
  match a with
  | ⟨0, _⟩ => show win0_3.index t (0 : Fin 2) * 128 + 1 * k.val = k.val; rewrite [e.2.2.2.1.1]; omega
  | ⟨1, _⟩ => show win0_3.index t (1 : Fin 2) * 128 + 1 * q.val = q.val; rewrite [e.2.2.2.1.2]; omega

/-- Window 4's block at any point, read off ANY contents A of its array: it is the whole array. -/
theorem whole_of4 (A : S128x128.Idx → EReal) (t : Fin cfg0.N) (k q : Fin 128) :
    (((cfg0.win 4).blk t).view.read (Elt Ideal) A : Vec Ideal S128x128 .f32) (ix2 k q) = A (ix2 k q) := by
  rewrite [View.read_apply]
  refine congrArg A (funext fun a => Fin.ext ?_)
  have e := index_facts t
  match a with
  | ⟨0, _⟩ => show win0_4.index t (0 : Fin 2) * 128 + 1 * k.val = k.val; rewrite [e.2.2.2.2.1.1]; omega
  | ⟨1, _⟩ => show win0_4.index t (1 : Fin 2) * 128 + 1 * q.val = q.val; rewrite [e.2.2.2.2.1.2]; omega

/-- Window 5's block at any point, read off ANY contents A of its array: it is the whole array. -/
theorem whole_of5 (A : S128x128.Idx → EReal) (t : Fin cfg0.N) (k q : Fin 128) :
    (((cfg0.win 5).blk t).view.read (Elt Ideal) A : Vec Ideal S128x128 .f32) (ix2 k q) = A (ix2 k q) := by
  rewrite [View.read_apply]
  refine congrArg A (funext fun a => Fin.ext ?_)
  have e := index_facts t
  match a with
  | ⟨0, _⟩ => show win0_5.index t (0 : Fin 2) * 128 + 1 * k.val = k.val; rewrite [e.2.2.2.2.2.1.1]; omega
  | ⟨1, _⟩ => show win0_5.index t (1 : Fin 2) * 128 + 1 * q.val = q.val; rewrite [e.2.2.2.2.2.1.2]; omega

/-- Window 6's block at any point, read off ANY contents A of its one-row array: lane q of the row. -/
theorem row_of6 (A : S1x128.Idx → EReal) (t : Fin cfg0.N) (q : Fin 128) :
    (((cfg0.win 6).blk t).view.read (Elt Ideal) A : Vec Ideal S1x128 .f32) (ix2 0 q) = A (ix2 0 q) := by
  rewrite [View.read_apply]
  refine congrArg A (funext fun a => Fin.ext ?_)
  have e := index_facts t
  match a with
  | ⟨0, _⟩ => show win0_6.index t (0 : Fin 2) * 1 + 1 * 0 = 0; rewrite [e.2.2.2.2.2.2.1.1]; rfl
  | ⟨1, _⟩ => show win0_6.index t (1 : Fin 2) * 128 + 1 * q.val = q.val; rewrite [e.2.2.2.2.2.2.1.2]; omega

/-! ## … at the arrays the region finds -/

theorem blk_feat (c : Dev nD) (t : Fin cfg0.N) (p : Fin 4000) (k : Fin 128) :
    (iblk m c 0 t : Vec Ideal S4000x128 .f32) (ix2 p k) = feat m c (ix2 (row t p) k) :=
  (rows_of0 (V m c main_arg0) t p k).trans (congrFun (V_main_arg0 m c) (ix2 (row t p) k))

theorem blk_agg0 (c : Dev nD) (t : Fin cfg0.N) (p : Fin 4000) (k : Fin 128) :
    (iblk m c 1 t : Vec Ideal S4000x128 .f32) (ix2 p k) = agg0 m c (ix2 (row t p) k) :=
  rows_of1 (agg0 m c) t p k

theorem blk_agg1 (c : Dev nD) (t : Fin cfg0.N) (p : Fin 4000) (k : Fin 128) :
    (iblk m c 2 t : Vec Ideal S4000x128 .f32) (ix2 p k) = agg1 m c (ix2 (row t p) k) :=
  rows_of2 (agg1 m c) t p k

theorem blk_wgt0 (c : Dev nD) (t : Fin cfg0.N) (k q : Fin 128) :
    (iblk m c 3 t : Vec Ideal S128x128 .f32) (ix2 k q) = wgt0 m c (ix2 k q) :=
  whole_of3 (wgt0 m c) t k q

theorem blk_wgt1 (c : Dev nD) (t : Fin cfg0.N) (k q : Fin 128) :
    (iblk m c 4 t : Vec Ideal S128x128 .f32) (ix2 k q) = wgt1 m c (ix2 k q) :=
  whole_of4 (wgt1 m c) t k q

theorem blk_wgt2 (c : Dev nD) (t : Fin cfg0.N) (k q : Fin 128) :
    (iblk m c 5 t : Vec Ideal S128x128 .f32) (ix2 k q) = wgt2 m c (ix2 k q) :=
  whole_of5 (wgt2 m c) t k q

theorem blk_bias (c : Dev nD) (t : Fin cfg0.N) (q : Fin 128) :
    (iblk m c 6 t : Vec Ideal S1x128 .f32) (ix2 0 q) = biasRow m c (ix2 0 q) :=
  row_of6 (biasRow m c) t q

/-- Where element (p, q) of point t's output block lies in the result array. -/
theorem out_emb (t : Fin cfg0.N) (p : Fin 4000) (q : Fin 128) :
    ((cfg0.win 7).blk t).view.emb (ix2 p q) = ix2 (row t p) q := by
  refine funext fun a => Fin.ext ?_
  obtain ⟨-, -, -, -, -, -, -, ⟨e0, e1⟩⟩ := index_facts t
  match a with
  | ⟨0, _⟩ => show win0_7.index t (0 : Fin 2) * 4000 + 1 * p.val = 4000 * t.val + p.val; rewrite [e0]; omega
  | ⟨1, _⟩ => show win0_7.index t (1 : Fin 2) * 128 + 1 * q.val = q.val; rewrite [e1]; omega

end Cert.KernelIdeal.Blocks

end
-- ==== Proof.WholeArray.lean ====
/-
  From the 25 blocks to the whole result array.

  The grid has 25 points; point t handles rows 4000 t … 4000 t + 3999. Its blocks of the features and of the two
  aggregates are those rows of their arrays, its blocks of the three weights and of the bias row are the whole arrays
  (block index (0, 0) at every point), and it writes those rows of the result. What it writes in row p, lane q is the
  body's stored element, which is the folded dense tail of the WHOLE arrays at row 4000 t + p, lane q. Every row lies
  in exactly the block of point row / 4000, so the result array ends holding the folded dense tail everywhere.
-/
import proofs.«123690_j3728031613523_2_alg».proof.Proof.Gen.KernelIdeal.Value
import proofs.«123690_j3728031613523_2_alg».proof.Proof.BodyAtIndex
import proofs.«123690_j3728031613523_2_alg».proof.Proof.EntryArrays
import proofs.«123690_j3728031613523_2_alg».proof.Proof.Blocks
import proofs.«123690_j3728031613523_2_alg».proof.Proof.DenseTail
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Entry Cert.KernelIdeal.Blocks Cert.Rgcn

variable (m : (ℓ : Loc nD τ sig) → Buf (Elt Ideal) ℓ) (ρ : Dev nD → PrngReg)

/-! ## The whole result -/

/-- The result array: the folded dense tail of the features, the two aggregates the region finds, the stacked
    weights, the bias and the self-loop weight. -/
def result (c : Dev nD) : S100000x128.Idx → EReal :=
  dense (feat m c) (agg0 m c) (agg1 m c) (stack m c) (bias m c) (loopW m c)

/-- The body's stored element at (p, q) of point t's block is the result at row 4000 t + p, lane q. -/
theorem stored_eq (c : Dev nD) (t : Fin cfg0.N) (p : Fin 4000) (q : Fin 128) :
    k0_pay1 (F := Ideal) (iblk m c 0 t) (iblk m c 1 t) (iblk m c 2 t) (iblk m c 3 t) (iblk m c 4 t) (iblk m c 5 t) (iblk m c 6 t) (ix2 p q)
      = result m c (ix2 (row t p) q) := by
  refine (Body.stored_apply (iblk m c 0 t) (iblk m c 1 t) (iblk m c 2 t) (iblk m c 3 t) (iblk m c 4 t) (iblk m c 5 t) (iblk m c 6 t) p q).trans ?_
  simp only [blk_feat, blk_agg0, blk_agg1, blk_wgt0, blk_wgt1, blk_wgt2, blk_bias, wgt0_apply, wgt1_apply, wgt2_apply, biasRow_apply]
  unfold result
  rewrite [dense_ix2]
  rfl

/-- WHAT POINT t WRITES BACK is block t of the result. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  rewrite [out_emb]
  exact stored_eq m c t p q

/-- An index of the result is in point t's block iff each coordinate is in the block's range on its axis. -/
theorem mem_blk (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v36).slice (win0_7.rect t)).set ↔ _
  rw [View.set_slice_whole, Rect.mem_set_unit]
  exact Iff.rfl

/-- Every index of the result lies in the block of the point its row over 4000 names. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 4000, by rw [points]; omega⟩
  have htv : t.val = (i 0).val / 4000 := rfl
  refine ⟨t, flush0_7 t, ?_⟩
  rw [mem_blk]
  obtain ⟨-, -, -, -, -, -, -, ⟨e0, e1⟩⟩ := index_facts t
  intro a
  match a with
  | ⟨0, _⟩ => show win0_7.index t (0 : Fin 2) * 4000 ≤ (i 0).val ∧ (i 0).val < win0_7.index t (0 : Fin 2) * 4000 + 4000; rw [e0, htv]; omega
  | ⟨1, _⟩ => show win0_7.index t (1 : Fin 2) * 128 ≤ (i 1).val ∧ (i 1).val < win0_7.index t (1 : Fin 2) * 128 + 128; rw [e1]; omega

/-- THE RESULT ARRAY after the run is the folded dense tail. -/
theorem final (c : Dev nD) : (dats m 0 c).arrAt 7 cfg0.N = result m c :=
  (dats m 0 c).arrAt_eq_of_cover 7 (result m c) (fun t _ => flushed_eq m c t) cover

/-- The run, read: the result array at the folded dense tail, the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.ReferenceAtIndex.lean ====
/-
  The reference's result read at one element (node n = i 0, output feature j = i 1).

  The reference joins the features x and the two aggregates s, t side by side into rows of length 384, multiplies by the
  three weight slabs stacked into one 384 x 128 matrix, adds the bias, then adds the self-loop product. Position
  128 a + k of a joined row is entry k of piece a; row 128 a + k of the stacked matrix is row k of slab a. So the
  384-long sum is the three 128-long sums, slab by slab:

      out n j = ((sum_k x n k * w 0 k j + sum_k s n k * w 1 k j + sum_k t n k * w 2 k j) + b j) + sum_k x n k * l k j .
-/
import proofs.«123690_j3728031613523_2_alg».proof.Proof.Gen.ReferenceIdeal.Read
import proofs.«123690_j3728031613523_2_alg».proof.Proof.DenseTail
import Idealize.ShloMosaic.Lib.ValueIdx
import Idealize.ShloMosaic.Lib.Pipeline.Value

noncomputable section

namespace Cert.ReferenceIdeal.AtIndex

open Cert.ReferenceIdeal Cert.ReferenceIdeal.Read Idealize.ShloMosaic Idealize.ShloMosaic.ValueIdx Cert.Rgcn

variable (x0 : FVec Ideal S100000x128 .f32) (x1 : FVec Ideal S8x2 .f32) (x2 : FVec Ideal S3x128x128 .f32)
  (x3 : FVec Ideal S128 .f32) (x4 : FVec Ideal S128x128 .f32) (x5 x6 x7 : IVec S1600000 32)

/-! ## The joined rows -/

/-- Entry 128 a + k of a joined row is entry k of piece a's row: piece 0 is the features, -/
theorem joined0 (n : Fin 100000) (k : Fin 128) :
    val_main_v26 (F := Ideal) x0 x1 x5 x6 x7 (ix2 n (slab 0 k)) = x0 (ix2 n k) := by
  unfold val_main_v26
  exact concatenate_apply_piece 1 _ _ (ix2 n (slab 0 k))
    0 (by simp) S100000x128 x0 rfl rfl 0 rfl (ix2 n k)
    (fun b hb => by
      match b with
      | ⟨0, _⟩ => rfl
      | ⟨1, _⟩ => exact absurd rfl hb)
    (by show 0 + k.val = 128 * 0 + k.val; omega)

/-- piece 1 the aggregate of basis 0, -/
theorem joined1 (n : Fin 100000) (k : Fin 128) :
    val_main_v26 (F := Ideal) x0 x1 x5 x6 x7 (ix2 n (slab 1 k)) = val_main_v19 (F := Ideal) x0 x1 x5 x6 x7 (ix2 n k) := by
  unfold val_main_v26
  exact concatenate_apply_piece 1 _ _ (ix2 n (slab 1 k))
    1 (by simp) S100000x128 (val_main_v19 (F := Ideal) x0 x1 x5 x6 x7) rfl rfl 128 rfl (ix2 n k)
    (fun b hb => by
      match b with
      | ⟨0, _⟩ => rfl
      | ⟨1, _⟩ => exact absurd rfl hb)
    (by show 128 + k.val = 128 * 1 + k.val; omega)

/-- piece 2 the aggregate of basis 1. -/
theorem joined2 (n : Fin 100000) (k : Fin 128) :
    val_main_v26 (F := Ideal) x0 x1 x5 x6 x7 (ix2 n (slab 2 k)) = val_main_v25 (F := Ideal) x0 x1 x5 x6 x7 (ix2 n k) := by
  unfold val_main_v26
  exact concatenate_apply_piece 1 _ _ (ix2 n (slab 2 k))
    2 (by simp) S100000x128 (val_main_v25 (F := Ideal) x0 x1 x5 x6 x7) rfl rfl 256 rfl (ix2 n k)
    (fun b hb => by
      match b with
      | ⟨0, _⟩ => rfl
      | ⟨1, _⟩ => exact absurd rfl hb)
    (by show 256 + k.val = 128 * 2 + k.val; omega)

/-! ## The stacked weights -/

/-- Row 128 a + k, column j of the three slabs stacked into a 384 x 128 matrix is entry (a, k, j) of the stack. -/
theorem stacked_apply (a : Fin 3) (k : Fin 128) (j : Fin 128) :
    val_main_v27 (F := Ideal) x2 (ix2 (slab a k) j) = x2 (ix3 a k j) := by
  rw [val_main_v27_apply]
  refine congrArg x2 (funext fun d => Fin.ext ?_)
  have ha : a.val < 3 := a.isLt
  have hk : k.val < 128 := k.isLt
  have hj : j.val < 128 := j.isLt
  match d with
  | ⟨0, _⟩ => show ((128 * a.val + k.val) * 128 + j.val) / 16384 = a.val; omega
  | ⟨1, _⟩ => show ((128 * a.val + k.val) * 128 + j.val) / 128 % 128 = k.val; omega
  | ⟨2, _⟩ => show ((128 * a.val + k.val) * 128 + j.val) % 128 = j.val; omega

/-! ## The result -/

/-- THE REFERENCE'S ELEMENT at node n, output feature j: the unfolded form, its long sum cut into the three slabs. -/
theorem result_apply (n : Fin 100000) (j : Fin 128) :
    val_main_v33 (F := Ideal) x0 x1 x2 x3 x4 x5 x6 x7 (ix2 n j)
      = ((∑ k : Fin 128, x0 (ix2 n k) * x2 (ix3 0 k j)
          + ∑ k : Fin 128, val_main_v19 (F := Ideal) x0 x1 x5 x6 x7 (ix2 n k) * x2 (ix3 1 k j)
          + ∑ k : Fin 128, val_main_v25 (F := Ideal) x0 x1 x5 x6 x7 (ix2 n k) * x2 (ix3 2 k j))
          + x3 (ix1 j))
        + ∑ k : Fin 128, x0 (ix2 n k) * x4 (ix2 k j) := by
  have hl : ∀ κ : Fin 384, lidx_main_v28 (ix2 n j) κ = ix2 n κ := fun κ =>
    funext fun d => Fin.ext (by match d with | ⟨0, _⟩ => rfl | ⟨1, _⟩ => rfl)
  have hr : ∀ κ : Fin 384, ridx_main_v28 (ix2 n j) κ = ix2 κ j := fun κ =>
    funext fun d => Fin.ext (by match d with | ⟨0, _⟩ => rfl | ⟨1, _⟩ => rfl)
  have hl' : ∀ k : Fin 128, lidx_main_v32 (ix2 n j) k = ix2 n k := fun k =>
    funext fun d => Fin.ext (by match d with | ⟨0, _⟩ => rfl | ⟨1, _⟩ => rfl)
  have hr' : ∀ k : Fin 128, ridx_main_v32 (ix2 n j) k = ix2 k j := fun k =>
    funext fun d => Fin.ext (by match d with | ⟨0, _⟩ => rfl | ⟨1, _⟩ => rfl)
  have hb : idx_main_v29 (idx_main_v30 (ix2 n j)) = ix1 j :=
    funext fun d => Fin.ext (by match d with | ⟨0, _⟩ => rfl)
  rw [val_main_v33_apply, val_main_v31_apply, val_main_v28_apply, val_main_v30_apply, val_main_v29_apply, val_main_v32_apply, sum_slabs]
  simp only [hl, hr, hl', hr', hb, joined0, joined1, joined2, stacked_apply]
  rfl

end Cert.ReferenceIdeal.AtIndex

end
-- ==== Proof.FiniteInputs.lean ====
/-
  What the precondition gives: the features, the stacked weights and the self-loop weight hold real numbers.

  The precondition is the conjunction, input by input, of "every |entry| is below +infinity". On the extended reals
  |x| = max x (-x), and max x (-x) < +infinity rules out both infinities, so x is a real. Only three of the five
  conjuncts are used: those of the arrays that meet in the one distributive step.
-/
import proofs.«123690_j3728031613523_2_alg».proof.Pre_finite_inputs
import proofs.«123690_j3728031613523_2_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

instance : Subsingleton S_.Idx := ⟨fun a b => funext fun d => d.elim0⟩

/-- The f32 pattern 0x7F800000 is +infinity. -/
theorem inf_pattern : Ideal.ofBits .f32 0x7F800000#32 = (⊤ : EReal) := by simp [Ideal.ofBits, Ideal.ieee]

/-- An extended real whose absolute value is below +infinity is a real. -/
theorem real_of_abs_lt_top (x : EReal) (h : max x (-x) < ⊤) : ∃ r : ℝ, x = r := by
  induction x using EReal.rec with
  | bot => simp at h
  | coe r => exact ⟨r, rfl⟩
  | top => simp at h

/-- The one-bit word of a decision is 1 exactly when the decision is true. -/
theorem ofBool_one {b : Bool} : BitVec.ofBool b = 1#1 ↔ b = true := by cases b <;> decide

/-- One entry's test "|x| < +infinity" came out true: x is a real. -/
theorem real_of_test (x : EReal)
    (h : FloatOps.cmpf (F := Ideal) (φ := .f32) .olt (FloatOps.hostAbsf x) (Ideal.ofBits .f32 0x7F800000#32) = 1#1) : ∃ r : ℝ, x = r := by
  rw [inf_pattern] at h
  have h' : Ideal.cmp .olt (max x (-x)) ⊤ = 1#1 := h
  unfold Ideal.cmp at h'
  simp only [ofBool_one, decide_eq_true_eq] at h'
  exact real_of_abs_lt_top x h'

/-- THE PRECONDITION'S YIELD: every feature, every stacked weight and every self-loop weight is a real. -/
theorem reals_of_pre (x0 : FVec Ideal S100000x128 .f32) (x1 : FVec Ideal S8x2 .f32) (x2 : FVec Ideal S3x128x128 .f32)
    (x3 : FVec Ideal S128 .f32) (x4 : FVec Ideal S128x128 .f32) (x5 x6 x7 : IVec S1600000 32)
    (h : fn (F := Ideal) x0 x1 x2 x3 x4 x5 x6 x7 = fun _ => 1#1) :
    (∀ i, ∃ r : ℝ, x0 i = r) ∧ (∀ i, ∃ r : ℝ, x2 i = r) ∧ (∀ i, ∃ r : ℝ, x4 i = r) := by
  have h0 := congrFun h ValueIdx.ix0
  dsimp only [fn, fn_part1] at h0
  obtain ⟨h0123, hE⟩ := IntOp.andi_eq_one.1 h0
  obtain ⟨h012, -⟩ := IntOp.andi_eq_one.1 h0123
  obtain ⟨h01, hC⟩ := IntOp.andi_eq_one.1 h012
  obtain ⟨hA, -⟩ := IntOp.andi_eq_one.1 h01
  refine ⟨fun i => real_of_test _ ?_, fun i => real_of_test _ ?_, fun i => real_of_test _ ?_⟩
  · exact Host.reduce_andi_all _ _ _ _ _ hA i
  · exact Host.reduce_andi_all _ _ _ _ _ hC i
  · exact Host.reduce_andi_all _ _ _ _ _ hE i

end Cert.Pre_finite_inputs.Finite

end
-- ==== Proof.lean ====
/-
  A relational graph convolution with two bases: the kernel against its reference, at the exact values.

  Both programs first build, on the host, the two per-basis aggregates s and t (per edge: its coefficient times the
  gathered source feature row, scatter-added at the edge's destination). The kernel gathers from a bf16 copy of the
  features and widens again; at the exact values those format changes are the identity, so its aggregates ARE the
  reference's, as terms — no gather or scatter is ever opened.

  The dense tail then differs in arrangement only. With x the features, w the three stacked weight slabs, l the
  self-loop weight and b the bias, the kernel's pipelined region computes, 4000 rows per grid point,

      out = (x (w0 + l) + s w1) + t w2 + b ,

  while the reference joins (x | s | t) into rows of 384, multiplies by the slabs stacked into one 384 x 128 matrix,
  adds b, and adds x l last. Cutting the 384-long sum into its three slabs and distributing x over w0 + l — the one
  step that needs x, w0 and l to be real numbers, which is what the precondition says of them — makes the two equal;
  everything else is a regrouping of sums, valid on the extended reals for any s and t.

  The three frames are the generated ones (the reference's is its generated run with the result dropped), and the
  idealization rewrote nothing, so its conjunct is trivial.
-/
import proofs.«123690_j3728031613523_2_alg».proof.Defs
import proofs.«123690_j3728031613523_2_alg».proof.Proof.Gen.Kernel
import proofs.«123690_j3728031613523_2_alg».proof.Proof.Gen.Kernel.Skeleton
import proofs.«123690_j3728031613523_2_alg».proof.Proof.Gen.Kernel.Launch
import proofs.«123690_j3728031613523_2_alg».proof.Proof.Gen.Kernel.Points
import proofs.«123690_j3728031613523_2_alg».proof.Proof.Gen.Kernel.Frame
import proofs.«123690_j3728031613523_2_alg».proof.Proof.Gen.KernelIdeal
import proofs.«123690_j3728031613523_2_alg».proof.Proof.Gen.KernelIdeal.Skeleton
import proofs.«123690_j3728031613523_2_alg».proof.Proof.Gen.KernelIdeal.Launch
import proofs.«123690_j3728031613523_2_alg».proof.Proof.Gen.KernelIdeal.Points
import proofs.«123690_j3728031613523_2_alg».proof.Proof.Gen.KernelIdeal.Frame
import proofs.«123690_j3728031613523_2_alg».proof.Proof.Gen.KernelIdeal.Value
import proofs.«123690_j3728031613523_2_alg».proof.Proof.Gen.ReferenceIdeal.Run
import proofs.«123690_j3728031613523_2_alg».proof.Proof.Gen.ReferenceIdeal.Read
import proofs.«123690_j3728031613523_2_alg».proof.Proof.Gen.ReferenceIdeal
import proofs.«123690_j3728031613523_2_alg».proof.Proof.Gen.Pre_finite_inputs
import proofs.«123690_j3728031613523_2_alg».proof.Proof.DenseTail
import proofs.«123690_j3728031613523_2_alg».proof.Proof.EntryArrays
import proofs.«123690_j3728031613523_2_alg».proof.Proof.WholeArray
import proofs.«123690_j3728031613523_2_alg».proof.Proof.ReferenceAtIndex
import proofs.«123690_j3728031613523_2_alg».proof.Proof.FiniteInputs
import Idealize.ShloMosaic.Adequacy
import Idealize.ShloMosaic.Init

noncomputable section

namespace Cert.Proof

open Idealize.ShloMosaic Idealize.SL.Sem Idealize.ShloMosaic.ValueIdx Cert.KernelIdeal.Entry

/-- The reference's result, of the kernel's own argument arrays, is the kernel's result array: element by element the
    unfolded form against the folded one, the aggregates the same terms on both sides. -/
theorem reference_eq_result (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (feat m c) (coeff m c) (stack m c) (bias m c) (loopW m c) (edgeSrc m c) (edgeDst m c) (edgeTy m c) = fun _ => 1#1) :
    Cert.ReferenceIdeal.Read.val_main_v33 (F := Ideal) (feat m c) (coeff m c) (stack m c) (bias m c) (loopW m c) (edgeSrc m c) (edgeDst m c) (edgeTy m c)
      = Cert.KernelIdeal.Whole.result m c := by
  obtain ⟨hx, hw, hl⟩ := Cert.Pre_finite_inputs.Finite.reals_of_pre _ _ _ _ _ _ _ _ hpre
  funext i
  obtain ⟨n, j, rfl⟩ : ∃ (n : Fin 100000) (j : Fin 128), i = ix2 n j := ⟨i 0, i 1, eq_ix2 i⟩
  rewrite [Cert.ReferenceIdeal.AtIndex.result_apply]
  unfold Cert.KernelIdeal.Whole.result
  rewrite [Cert.Rgcn.dense_unfolded_ix2 _ _ _ _ _ _ hx hw hl n j, agg0_eq, agg1_eq]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result array ends at the folded dense tail (the whole-array reading of its 25
    blocks), the reference's at its composed term, which of agreeing arguments is the same array. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v33_eq (F := Ideal) _ _ _ _ _ _ _ _).trans (reference_eq_result m c (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
